-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S10000x256 : Shape := ⟨2, ![10000, 256]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x256, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | .hbm, ⟨13, _⟩ => ⟨S10000x256, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x256, .f32⟩
  | .hbm, ⟨18, _⟩ => ⟨S_, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S128x128_S128x128_1_0 : S128x128.Transposes [1, 0] S128x128
  concatenates_S10000x128_S10000x128_S10000x256_d1 : Shape.Concatenates [S10000x128, S10000x128] S10000x256 1
  slices_S10000x256_S10000x128_0_0 : S10000x256.Slices ![0, 0] S10000x128
  slices_S10000x256_S10000x128_0_128 : S10000x256.Slices ![0, 128] S10000x128
  bcast_S_S10000x256 : S_.BroadcastsInDim S10000x256 (![] : Fin 0 → Fin S10000x256.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GeoSpec.lean ====
/-
  What both programs compute, as one function of the three argument arrays: features x : [10000, 128], adjacency
  adj : [10000, 10000], weight w : [128, 128]. With the neighbourhood aggregate

      agg(r, j) = ∑ₖ adj(r, k) · x(k, j),

  the entry (r, c) of the result is ¾ · agg(r, c) + ∑ⱼ agg(r, j) · w(c, j): the aggregate of the positions the two
  Euler half-steps reach, with the aggregation done before the weight is applied. The coefficient ¾ is kept as the
  float word the kernel spells, 0x3F400000.
-/
import Idealize.ShloMosaic.PureOps.Ideal
import Idealize.ShloMosaic.Lib.ValueIdx

noncomputable section

namespace Cert.GeoSpec

open Idealize.ShloMosaic Idealize.ShloMosaic.ValueIdx

/-- The features' shape. -/
abbrev SX : Shape := ⟨2, ![10000, 128]⟩
/-- The adjacency's shape. -/
abbrev SA : Shape := ⟨2, ![10000, 10000]⟩
/-- The weight's shape. -/
abbrev SW : Shape := ⟨2, ![128, 128]⟩

/-- The neighbourhood aggregate of feature column j at node r. -/
def agg (adj : SA.Idx → EReal) (x : SX.Idx → EReal) (r : Fin 10000) (j : Fin 128) : EReal :=
  ∑ k : Fin 10000, adj (ix2 r k) * x (ix2 k j)

/-- The result at node r and output column c. -/
def entry (x : SX.Idx → EReal) (adj : SA.Idx → EReal) (w : SW.Idx → EReal) (r : Fin 10000) (c : Fin 128) : EReal :=
  Ideal.ofBits .f32 0x3F400000#32 * agg adj x r c + ∑ j : Fin 128, agg adj x r j * w (ix2 c j)

/-- The result array. -/
def G (x : SX.Idx → EReal) (adj : SA.Idx → EReal) (w : SW.Idx → EReal) : SX.Idx → EReal :=
  fun i => entry x adj w (i 0) (i 1)

theorem G_ix2 (x : SX.Idx → EReal) (adj : SA.Idx → EReal) (w : SW.Idx → EReal) (r : Fin 10000) (c : Fin 128) :
    G x adj w (ix2 r c) = entry x adj w r c := rfl

end Cert.GeoSpec

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibTransposedDot.lean ====
/-
  A matrix product with the right operand transposed, read at an entry. For the dimension numbers of an [M, K] by
  [N, K] product (no batch axis, both operands contracted on their last axis) the entry (p, q) of the product is
  ∑ₖ l(p, k) · r(q, k) over k : Fin K — for a tpu.matmul into the zero accumulator and for the host's dot_general alike,
  at the ideal values. General in the three extents and in the operands' formats; a printed record of these dimension
  numbers is DotDims.transposedRhs M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem transposedRhs_lhs_row {M K N : ℕ} (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column, whatever the contraction index. -/
theorem transposedRhs_rhs_row {M K N : ℕ} (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (p, q) and contraction coordinate k is (p, k). -/
theorem transposedRhs_lhsIdx {M K N : ℕ} (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => exact transposedRhs_lhs_row (ix2 p q) _
  | ⟨1, _⟩ => exact ((DotDims.transposedRhs M K N).lhsIdx_val_of_single (cl := (1 : Fin 2)) rfl (ix2 p q) _).trans hk

/-- The right operand's index at output (p, q) and contraction coordinate k is (q, k). -/
theorem transposedRhs_rhsIdx {M K N : ℕ} (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => exact transposedRhs_rhs_row (ix2 p q) _
  | ⟨1, _⟩ => exact ((DotDims.transposedRhs M K N).rhsIdx_val_of_single (cr := (1 : Fin 2)) rfl (ix2 p q) _).trans hk

/-- The product's sum over the contraction index, re-indexed by the contracted coordinate. -/
theorem sum_transposedRhs {M K N : ℕ} (l : (⟨2, ![M, K]⟩ : Shape).Idx → EReal) (r : (⟨2, ![N, K]⟩ : Shape).Idx → EReal)
    (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ k : Fin K, l (ix2 p k) * r (ix2 q k) := by
  rw [← Equiv.sum_comp (contrEquiv1 (DotDims.transposedRhs M K N) K rfl rfl).symm]
  exact Finset.sum_congr rfl fun k _ => by rw [transposedRhs_lhsIdx, transposedRhs_rhsIdx]

/-- A tpu.matmul of these dimension numbers into the zero accumulator, at entry (p, q). -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  exact (Ideal.matmul_constant_zero_apply _ prec lhs rhs (ix2 p q)).trans (sum_transposedRhs lhs rhs p q)

/-- The host's dot_general of these dimension numbers, at entry (p, q). -/
theorem dotGeneral_transposedRhs_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  exact (Ideal.dotGeneral_apply _ prec sched lhs rhs (ix2 p q)).trans (sum_transposedRhs lhs rhs p q)

end Idealize.ShloMosaic.ValueIdx
-- ==== Proof.GeoKernelBlock.lean ====
/-
  The kernel's body at an entry. At one grid point the body holds a block of 400 adjacency rows a : [400, 10000], all
  the features x : [10000, 128] and the weight w : [128, 128]. It forms y = a · x (a plain matrix product into a zero
  accumulator), then ¾ · y + y · wᵀ (the second product contracts y's columns with w's columns). So the stored block's
  entry (p, c) is ¾ · ∑ₖ a(p, k)·x(k, c) + ∑ⱼ (∑ₖ a(p, k)·x(k, j)) · w(c, j).
-/
import proofs.«168371_g81724637708389_cont_9to1_m_1123_17_alg».proof.Proof.Gen.KernelIdeal.Skeleton
import proofs.«168371_g81724637708389_cont_9to1_m_1123_17_alg».proof.Proof.LibPlainDot
import proofs.«168371_g81724637708389_cont_9to1_m_1123_17_alg».proof.Proof.LibTransposedDot

noncomputable section

namespace Cert.GeoKernelBlock

open Cert.KernelIdeal Cert.KernelIdeal.Gen Idealize.ShloMosaic Idealize.ShloMosaic.ValueIdx

/-- The first product, rows of the adjacency block against the features, at an entry. -/
theorem aggregate_apply (a : FVec Ideal S400x10000 .f32) (x : FVec Ideal S10000x128 .f32) (p : Fin 400) (j : Fin 128) :
    matmul (F := Ideal) (φ₁ := .f32) (φ₂ := .f32) dot_S400x10000_S10000x128_S400x128_1_0_0_1_n_n none a x (constant S400x128 .f32 0x00000000#32) (ix2 p j)
      = ∑ k : Fin 10000, a (ix2 p k) * x (ix2 k j) :=
  matmul_plain_zero_apply dot_S400x10000_S10000x128_S400x128_1_0_0_1_n_n rfl none a x p j

/-- The second product, an aggregate block against the weight's rows, at an entry. -/
theorem weighted_apply (y : FVec Ideal S400x128 .f32) (w : FVec Ideal S128x128 .f32) (p : Fin 400) (c : Fin 128) :
    matmul (F := Ideal) (φ₁ := .f32) (φ₂ := .f32) dot_S400x128_S128x128_S400x128_1_1_0_0_n_n none y w (constant S400x128 .f32 0x00000000#32) (ix2 p c)
      = ∑ j : Fin 128, y (ix2 p j) * w (ix2 c j) :=
  matmul_transposedRhs_zero_apply dot_S400x128_S128x128_S400x128_1_1_0_0_n_n rfl none y w p c

/-- The stored block at entry (p, c). -/
theorem payload_apply (a : Vec Ideal S400x10000 .f32) (x : Vec Ideal S10000x128 .f32) (w : Vec Ideal S128x128 .f32)
    (p : Fin 400) (c : Fin 128) :
    k0_pay1 (F := Ideal) a x w (ix2 p c)
      = Ideal.ofBits .f32 0x3F400000#32 * (∑ k : Fin 10000, a (ix2 p k) * x (ix2 k c))
        + ∑ j : Fin 128, (∑ k : Fin 10000, a (ix2 p k) * x (ix2 k j)) * w (ix2 c j) := by
  unfold k0_pay1
  show Ideal.ofBits .f32 0x3F400000#32
        * matmul (F := Ideal) (φ₁ := .f32) (φ₂ := .f32) dot_S400x10000_S10000x128_S400x128_1_0_0_1_n_n none a x (constant S400x128 .f32 0x00000000#32) (ix2 p c)
      + matmul (F := Ideal) (φ₁ := .f32) (φ₂ := .f32) dot_S400x128_S128x128_S400x128_1_1_0_0_n_n none
          (matmul (F := Ideal) (φ₁ := .f32) (φ₂ := .f32) dot_S400x10000_S10000x128_S400x128_1_0_0_1_n_n none a x (constant S400x128 .f32 0x00000000#32))
          w (constant S400x128 .f32 0x00000000#32) (ix2 p c) = _
  rw [weighted_apply, aggregate_apply]
  exact congrArg _ (Finset.sum_congr rfl fun j _ => by rw [aggregate_apply])

end Cert.GeoKernelBlock

end
-- ==== Proof.GeoKernelValue.lean ====
/-
  From blocks to the array. The kernel's grid has 25 points; point t holds adjacency rows 400·t … 400·t + 399 (all
  10000 columns), the whole feature array and the whole weight, and writes back rows 400·t … 400·t + 399 of the
  result. Each written block is the matching block of the one function G of the argument arrays (the body's entry
  lemma, with the block's row r of the array being 400·t + p for the block's row p), and the 25 blocks tile the
  10000 rows (row r lies in the block of point r / 400). So the result array after the run is G of the arguments.
-/
import proofs.«168371_g81724637708389_cont_9to1_m_1123_17_alg».proof.Proof.Gen.KernelIdeal.Value
import proofs.«168371_g81724637708389_cont_9to1_m_1123_17_alg».proof.Proof.GeoSpec
import proofs.«168371_g81724637708389_cont_9to1_m_1123_17_alg».proof.Proof.GeoKernelBlock

set_option maxRecDepth 16384

noncomputable section

namespace Cert.GeoKernelValue

open Cert.KernelIdeal Cert.KernelIdeal.Gen Idealize.ShloMosaic Idealize.ShloMosaic.TcCoe Idealize.SL.Sem
open Idealize.ShloMosaic.ValueIdx Cert.GeoSpec Cert.GeoKernelBlock
open Idealize.ShloMosaic.Pipeline (Dat)

/-- The body's loads and its store start at the origin of their buffers. -/
theorem origin : (![0, 0] : Fin 2 → Nat) = fun _ => 0 := funext fun a => by fin_cases a <;> rfl

/-- One stored block is a block of G. The block holds rows b·400 … of the adjacency (a), the whole features (x)
    and the whole weight (w); its entry y is the entry i of G whose row is b·400 + (row of y) and whose column is
    y's column. -/
theorem block_entry (X : SX.Idx → EReal) (A : SA.Idx → EReal) (W : SW.Idx → EReal) (b : ℕ)
    (a : FVec Ideal S400x10000 .f32) (x : FVec Ideal S10000x128 .f32) (w : FVec Ideal S128x128 .f32)
    (ha : ∀ (y : S400x10000.Idx) (i : SA.Idx), (i 0).val = b * 400 + (y 0).val → (i 1).val = (y 1).val → a y = A i)
    (hx : ∀ y : S10000x128.Idx, x y = X y) (hw : ∀ y : S128x128.Idx, w y = W y)
    (y : S400x128.Idx) (i : SX.Idx) (h0 : (i 0).val = b * 400 + (y 0).val) (h1 : (i 1).val = (y 1).val) :
    k0_pay1 (F := Ideal) a x w y = G X A W i := by
  obtain ⟨p, c, rfl⟩ : ∃ (p : Fin 400) (c : Fin 128), y = ix2 p c := ⟨y 0, y 1, eq_ix2 y⟩
  obtain ⟨r, c', rfl⟩ : ∃ (r : Fin 10000) (c' : Fin 128), i = ix2 r c' := ⟨i 0, i 1, eq_ix2 i⟩
  have hc : c' = c := Fin.ext h1
  subst hc
  have hr : r.val = b * 400 + p.val := h0
  have ea : ∀ k : Fin 10000, a (ix2 p k) = A (ix2 r k) := fun k => ha _ _ hr rfl
  rw [payload_apply, G_ix2]
  unfold entry agg
  simp only [ea, hx, hw]

/-- The printed index maps, decided over the 25 grid points: the adjacency's block row is the output's block row,
    every other block coordinate is zero, and the output's block row is at most 24. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Every block row 0 … 24 of the output is some grid point's. -/
theorem index_onto : ∀ q : Fin 25, ∃ t : Fin cfg0.N, win0_3.index t = ![q.val, 0] :=
  (by decide +kernel : ∀ q : Fin 25, ∃ t : Fin grid0.N, win0_3.index t = ![q.val, 0])

variable (m : (ℓ : Loc nD τ sig) → Buf (Elt Ideal) ℓ) (ρ : Dev nD → PrngReg)

/-- What grid point t writes back is block t of G of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Value.flushed3]
  unfold out0_3
  rw [View.canon_unit_zero origin]
  simp only [View.ld_unit_zero (S := S400x10000) origin, View.ld_unit_zero (S := S10000x128) origin,
    View.ld_unit_zero (S := S128x128) origin]
  obtain ⟨e0, e1, e2, e3, e4, e5, e6, e7⟩ := index_facts t
  funext j
  refine block_entry (V m c main_arg0) (V m c main_arg1) (V m c main_arg2) (win0_3.index t (0 : Fin 2))
    (iblk m c 0 t) (iblk m c 1 t) (iblk m c 2 t) ?_ ?_ ?_ j (((cfg0.win 3).blk t).view.emb j) ?_ ?_
  · intro y i h0 h1
    show V m c main_arg1 (((cfg0.win 0).blk t).view.emb y) = V m c main_arg1 i
    refine congrArg (V m c main_arg1) (funext fun a => Fin.ext ?_)
    match a with
    | ⟨0, _⟩ => show win0_0.index t (0 : Fin 2) * 400 + 1 * (y 0).val = (i 0).val; omega
    | ⟨1, _⟩ => show win0_0.index t (1 : Fin 2) * 10000 + 1 * (y 1).val = (i 1).val; omega
  · intro y
    show V m c main_arg0 (((cfg0.win 1).blk t).view.emb y) = V m c main_arg0 y
    refine congrArg (V m c main_arg0) (funext fun a => Fin.ext ?_)
    match a with
    | ⟨0, _⟩ => show win0_1.index t (0 : Fin 2) * 10000 + 1 * (y 0).val = (y 0).val; omega
    | ⟨1, _⟩ => show win0_1.index t (1 : Fin 2) * 128 + 1 * (y 1).val = (y 1).val; omega
  · intro y
    show V m c main_arg2 (((cfg0.win 2).blk t).view.emb y) = V m c main_arg2 y
    refine congrArg (V m c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show win0_3.index t (0 : Fin 2) * 400 + 1 * (j 0).val = win0_3.index t (0 : Fin 2) * 400 + (j 0).val
    omega
  · show win0_3.index t (1 : Fin 2) * 128 + 1 * (j 1).val = (j 1).val
    omega

/-- An index of the result array is in point t's block iff each coordinate is in the block's range on its axis. -/
theorem mem_block (t : Fin cfg0.N) (i : S10000x128.Idx) :
    i ∈ ((cfg0.win 3).blk t).view.set
      ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- The 25 written blocks tile the result array: row r is in the block of the point whose block row is r / 400. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := index_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- The result array after the run is G of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => flushed_eq m c t) covered

/-- The kernel's run: every weakly fair execution terminates with the result array at G of the arguments and the
    arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.GeoKernelValue

end
-- ==== Proof.LibPairConcat.lean ====
/-
  Two arrays joined along an axis, read at an entry, for matrices: two blocks side by side (axis 1) and two blocks one
  above the other (axis 0). An entry whose coordinate on the joined axis lies below the first block's extent is the
  first block's entry at the same coordinates; an entry at or past it is the second block's, the first extent less.
  And the sum this splits: a sum over a + b places is the sum over the first a plus the sum over the last b.
  General in the extents and the element type.
-/
import Idealize.ShloMosaic.Lib.Pipeline.Value
import Idealize.ShloMosaic.Lib.ValueIdx

namespace Cert.PairConcat

open Idealize.ShloMosaic Idealize.ShloMosaic.ValueIdx

variable {α : Type}

/-- Two blocks side by side: a column of the first block. -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin a) (hk : k.val < c) :
    concatenate ⟨2, ![m, c]⟩ 1 [⟨⟨2, ![m, a]⟩, x₁⟩, ⟨⟨2, ![m, b]⟩, x₂⟩] h (ix2 p ⟨k.val, hk⟩) = x₁ (ix2 p k) := by
  refine concatenate_pair_apply_left (t := ⟨2, ![m, c]⟩) (1 : Fin 2) x₁ x₂ h _ rfl (ix2 p k) fun bx => ?_
  match bx with
  | ⟨0, _⟩ => rfl
  | ⟨1, _⟩ => rfl

/-- Two blocks side by side: a column of the second block. -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin b) (hk : a + k.val < c) :
    concatenate ⟨2, ![m, c]⟩ 1 [⟨⟨2, ![m, a]⟩, x₁⟩, ⟨⟨2, ![m, b]⟩, x₂⟩] h (ix2 p ⟨a + k.val, hk⟩) = x₂ (ix2 p k) := by
  refine concatenate_pair_apply_right (t := ⟨2, ![m, c]⟩) (1 : Fin 2) x₁ x₂ h _ rfl rfl (ix2 p k) (fun bx hb => ?_) ?_
  · match bx with
    | ⟨0, _⟩ => rfl
    | ⟨1, _⟩ => exact absurd rfl hb
  · show k.val + a = a + k.val
    omega

/-- Two blocks one above the other: a row of the first block. -/
theorem concat_rows_left {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin a) (hk : k.val < c) (q : Fin n) :
    concatenate ⟨2, ![c, n]⟩ 0 [⟨⟨2, ![a, n]⟩, x₁⟩, ⟨⟨2, ![b, n]⟩, x₂⟩] h (ix2 ⟨k.val, hk⟩ q) = x₁ (ix2 k q) := by
  refine concatenate_pair_apply_left (t := ⟨2, ![c, n]⟩) (0 : Fin 2) x₁ x₂ h _ rfl (ix2 k q) fun bx => ?_
  match bx with
  | ⟨0, _⟩ => rfl
  | ⟨1, _⟩ => rfl

/-- Two blocks one above the other: a row of the second block. -/
theorem concat_rows_right {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin b) (hk : a + k.val < c) (q : Fin n) :
    concatenate ⟨2, ![c, n]⟩ 0 [⟨⟨2, ![a, n]⟩, x₁⟩, ⟨⟨2, ![b, n]⟩, x₂⟩] h (ix2 ⟨a + k.val, hk⟩ q) = x₂ (ix2 k q) := by
  refine concatenate_pair_apply_right (t := ⟨2, ![c, n]⟩) (0 : Fin 2) x₁ x₂ h _ rfl rfl (ix2 k q) (fun bx hb => ?_) ?_
  · match bx with
    | ⟨0, _⟩ => exact absurd rfl hb
    | ⟨1, _⟩ => rfl
  · show k.val + a = a + k.val
    omega

/-- A sum over `a + b` places is the sum over the first `a` plus the sum over the last `b`. -/
theorem sum_split {M : Type*} [AddCommMonoid M] (a b c : ℕ) (hc : a + b = c) (f : Fin c → M) :
    ∑ k : Fin c, f k = ∑ k : Fin a, f ⟨k.val, by have := k.isLt; omega⟩ + ∑ k : Fin b, f ⟨a + k.val, by have := k.isLt; omega⟩ := by
  subst hc
  rw [Fin.sum_univ_add]
  rfl

end Cert.PairConcat
-- ==== Proof.GeoReference.lean ====
/-
  The reference, read at an entry. The reference forms vt = x · wᵀ, lays positions and momenta side by side as
  [x | vt] : [10000, 256], and takes two explicit Euler half-steps of the flow (q, p) ↦ (p, −q): each step adds one
  half of [p | −q] to [q | p]. After the first step the left half holds x + ½·vt and the right half vt + ½·(−x); after
  the second the left half — the positions — holds (x + ½·vt) + ½·(vt + ½·(−x)). The result is the adjacency times
  these positions: entry (r, c) is ∑ₖ adj(r, k) · position(k, c), with vt(k, c) = ∑ⱼ x(k, j) · w(c, j).
  Columns 0 … 127 of a [10000, 256] array are its left half, columns 128 … 255 its right half.
-/
import proofs.«168371_g81724637708389_cont_9to1_m_1123_17_alg».proof.Proof.Gen.ReferenceIdeal.Read
import proofs.«168371_g81724637708389_cont_9to1_m_1123_17_alg».proof.Proof.LibPairConcat
import proofs.«168371_g81724637708389_cont_9to1_m_1123_17_alg».proof.Proof.GeoSpec

noncomputable section

namespace Cert.GeoReference

open Cert.ReferenceIdeal Cert.ReferenceIdeal.Read Idealize.ShloMosaic Idealize.ShloMosaic.ValueIdx
open Cert.PairConcat Cert.GeoSpec

/-- One half, as the reference spells it. -/
abbrev half : EReal := Ideal.ofBits .f32 0x3F000000#32

/-- The momentum vt = x · wᵀ at node k and column c. -/
def vt (x : SX.Idx → EReal) (w : SW.Idx → EReal) (k : Fin 10000) (c : Fin 128) : EReal :=
  ∑ j : Fin 128, x (ix2 k j) * w (ix2 c j)

/-- The position after the two half-steps at node k and column c. -/
def position (x : SX.Idx → EReal) (w : SW.Idx → EReal) (k : Fin 10000) (c : Fin 128) : EReal :=
  (x (ix2 k c) + half * vt x w k c) + half * (vt x w k c + half * (-(x (ix2 k c))))

/-- The reference's result at node r and column c. -/
def refEntry (x : SX.Idx → EReal) (adj : SA.Idx → EReal) (w : SW.Idx → EReal) (r : Fin 10000) (c : Fin 128) : EReal :=
  ∑ k : Fin 10000, adj (ix2 r k) * position x w k c

/-- The reference's result array. -/
def Gref (x : SX.Idx → EReal) (adj : SA.Idx → EReal) (w : SW.Idx → EReal) : SX.Idx → EReal :=
  fun i => refEntry x adj w (i 0) (i 1)

/-- Column c of the left half. -/
abbrev colL (c : Fin 128) : Fin 256 := ⟨c.val, by have := c.isLt; omega⟩
/-- Column c of the right half. -/
abbrev colR (c : Fin 128) : Fin 256 := ⟨128 + c.val, by have := c.isLt; omega⟩

/-! ## The printed index functions at coordinates -/

theorem lidx1 (k : Fin 10000) (c j : Fin 128) : lidx_main_v1 (ix2 k c) j = ix2 k j :=
  funext fun a => by match a with | ⟨0, _⟩ => rfl | ⟨1, _⟩ => rfl
theorem ridx1 (k : Fin 10000) (c j : Fin 128) : ridx_main_v1 (ix2 k c) j = ix2 j c :=
  funext fun a => by match a with | ⟨0, _⟩ => rfl | ⟨1, _⟩ => rfl
theorem idx0 (j c : Fin 128) : idx_main_v0 (ix2 j c) = ix2 c j :=
  funext fun a => by match a with | ⟨0, _⟩ => rfl | ⟨1, _⟩ => rfl
theorem lidx18 (r : Fin 10000) (c : Fin 128) (k : Fin 10000) : lidx_main_v18 (ix2 r c) k = ix2 r k :=
  funext fun a => by match a with | ⟨0, _⟩ => rfl | ⟨1, _⟩ => rfl
theorem ridx18 (r : Fin 10000) (c : Fin 128) (k : Fin 10000) : ridx_main_v18 (ix2 r c) k = ix2 k c :=
  funext fun a => by match a with | ⟨0, _⟩ => rfl | ⟨1, _⟩ => rfl
theorem idx3 (k : Fin 10000) (c : Fin 128) : idx_main_v3 (ix2 k c) = ix2 k (colL c) :=
  funext fun a => by match a with | ⟨0, _⟩ => rfl | ⟨1, _⟩ => rfl
theorem idx4 (k : Fin 10000) (c : Fin 128) : idx_main_v4 (ix2 k c) = ix2 k (colR c) :=
  funext fun a => by match a with | ⟨0, _⟩ => rfl | ⟨1, _⟩ => rfl
theorem idx10 (k : Fin 10000) (c : Fin 128) : idx_main_v10 (ix2 k c) = ix2 k (colL c) :=
  funext fun a => by match a with | ⟨0, _⟩ => rfl | ⟨1, _⟩ => rfl
theorem idx11 (k : Fin 10000) (c : Fin 128) : idx_main_v11 (ix2 k c) = ix2 k (colR c) :=
  funext fun a => by match a with | ⟨0, _⟩ => rfl | ⟨1, _⟩ => rfl
theorem idx17 (k : Fin 10000) (c : Fin 128) : idx_main_v17 (ix2 k c) = ix2 k (colL c) :=
  funext fun a => by match a with | ⟨0, _⟩ => rfl | ⟨1, _⟩ => rfl

/-! ## The stages at coordinates -/

variable (x : (⟨S10000x128, .f32⟩ : BufTy).Contents (Elt Ideal)) (w : (⟨S128x128, .f32⟩ : BufTy).Contents (Elt Ideal))

/-- x · wᵀ. -/
theorem v1_at (k : Fin 10000) (c : Fin 128) : val_main_v1 (F := Ideal) x w (ix2 k c) = vt x w k c := by
  rw [val_main_v1_apply]
  unfold vt
  refine Finset.sum_congr rfl fun j _ => ?_
  rw [val_main_v0_apply, lidx1, ridx1, idx0]

/-- [x | vt], left half. -/
theorem v2_left (k : Fin 10000) (c : Fin 128) : val_main_v2 (F := Ideal) x w (ix2 k (colL c)) = x (ix2 k c) := by
  unfold val_main_v2
  exact concat_cols_left x (val_main_v1 (F := Ideal) x w) _ k c _

/-- [x | vt], right half. -/
theorem v2_right (k : Fin 10000) (c : Fin 128) : val_main_v2 (F := Ideal) x w (ix2 k (colR c)) = vt x w k c := by
  unfold val_main_v2
  exact (concat_cols_right x (val_main_v1 (F := Ideal) x w) _ k c _).trans
    (v1_at x w k c)

/-- [p | −q] of the start, left half: the momentum. -/
theorem v6_left (k : Fin 10000) (c : Fin 128) : val_main_v6 (F := Ideal) x w (ix2 k (colL c)) = vt x w k c := by
  unfold val_main_v6
  refine (concat_cols_left (val_main_v4 (F := Ideal) x w) (val_main_v5 (F := Ideal) x w)
    _ k c _).trans ?_
  rw [val_main_v4_apply, idx4, v2_right]

/-- [p | −q] of the start, right half: the negated position. -/
theorem v6_right (k : Fin 10000) (c : Fin 128) : val_main_v6 (F := Ideal) x w (ix2 k (colR c)) = -(x (ix2 k c)) := by
  unfold val_main_v6
  refine (concat_cols_right (val_main_v4 (F := Ideal) x w) (val_main_v5 (F := Ideal) x w)
    _ k c _).trans ?_
  rw [val_main_v5_apply, val_main_v3_apply, idx3, v2_left]
  rfl

/-- After the first half-step, left half. -/
theorem v9_left (k : Fin 10000) (c : Fin 128) :
    val_main_v9 (F := Ideal) x w (ix2 k (colL c)) = x (ix2 k c) + half * vt x w k c := by
  rw [val_main_v9_apply, val_main_v8_apply, val_main_v7_apply, val_main_cst_apply, v2_left, v6_left]
  rfl

/-- After the first half-step, right half. -/
theorem v9_right (k : Fin 10000) (c : Fin 128) :
    val_main_v9 (F := Ideal) x w (ix2 k (colR c)) = vt x w k c + half * (-(x (ix2 k c))) := by
  rw [val_main_v9_apply, val_main_v8_apply, val_main_v7_apply, val_main_cst_apply, v2_right, v6_right]
  rfl

/-- [p | −q] after the first half-step, left half. -/
theorem v13_left (k : Fin 10000) (c : Fin 128) :
    val_main_v13 (F := Ideal) x w (ix2 k (colL c)) = vt x w k c + half * (-(x (ix2 k c))) := by
  unfold val_main_v13
  refine (concat_cols_left (val_main_v11 (F := Ideal) x w) (val_main_v12 (F := Ideal) x w)
    _ k c _).trans ?_
  rw [val_main_v11_apply, idx11, v9_right]

/-- The positions after the second half-step. -/
theorem v17_at (k : Fin 10000) (c : Fin 128) : val_main_v17 (F := Ideal) x w (ix2 k c) = position x w k c := by
  rw [val_main_v17_apply, idx17, val_main_v16_apply, val_main_v15_apply, val_main_v14_apply, val_main_cst_0_apply,
    v9_left, v13_left]
  rfl

variable (adj : (⟨S10000x10000, .f32⟩ : BufTy).Contents (Elt Ideal))

/-- The reference's result is Gref of its arguments. -/
theorem result_eq : val_main_v18 (F := Ideal) x adj w = Gref x adj w := by
  funext i
  obtain ⟨r, c, rfl⟩ : ∃ (r : Fin 10000) (c : Fin 128), i = ix2 r c := ⟨i 0, i 1, eq_ix2 i⟩
  rw [val_main_v18_apply]
  show _ = refEntry x adj w r c
  unfold refEntry
  refine Finset.sum_congr rfl fun k _ => ?_
  rw [lidx18, ridx18, v17_at]

end Cert.GeoReference

end
-- ==== Proof.LibRealArrays.lean ====
/-
  Arrays of extended reals whose entries are all real numbers.

  On the extended reals the distributive law and the exchange of a product with a sum fail at the
  infinities, so a law that needs them is applied only to arrays known to hold real numbers. This
  file says which array operations keep that property: an operation that re-lays entries
  (transpose, slice, broadcast, concatenate, gather) returns entries of its operands; a pointwise
  sum, difference, product, negation, maximum, exponential or hyperbolic tangent of real numbers is
  a real number; a quotient by a POSITIVE real and the reciprocal square root of a POSITIVE real are
  real numbers; a finite sum of real numbers is a real number, hence so is every entry of a matrix
  product and of an accumulating scatter of real arrays.
-/
import Idealize.ShloMosaic.PureOps.Ideal
import Idealize.ShloMosaic.PureOps.Ideal.Laws

noncomputable section

namespace RealArrays

open Idealize.ShloMosaic

/-! ## Real and positive extended reals -/

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- The maximum of a real number and a positive real number is a positive real number. -/
theorem IsPos.max_right {x y : EReal} (hx : IsReal x) (hy : IsPos y) : IsPos (max x y) := by
  rcases le_total x y with h | h
  · rw [max_eq_right h]; exact hy
  · rw [max_eq_left h]
    obtain ⟨a, rfl⟩ := hx; obtain ⟨b, hb, rfl⟩ := hy
    exact ⟨a, lt_of_lt_of_le hb (by exact_mod_cast h), rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.exp {x : EReal} (hx : IsReal x) : IsPos (Ideal.exp x) := by
  obtain ⟨a, rfl⟩ := hx; exact ⟨Real.exp a, Real.exp_pos a, Ideal.exp_coe a⟩

theorem IsReal.tanh {x : EReal} (hx : IsReal x) : IsReal (Ideal.tanh x) := by
  obtain ⟨a, rfl⟩ := hx; exact ⟨Real.tanh a, Ideal.tanh_coe a⟩

/-- A real number over a positive real number is a real number. -/
theorem IsReal.div_pos {x y : EReal} (hx : IsReal x) (hy : IsPos y) : IsReal (Ideal.div x y) := by
  obtain ⟨b, hb, rfl⟩ := hy
  rw [Ideal.div_coe (ne_of_gt hb)]
  exact hx.mul (isReal_coe _)

/-- The reciprocal square root of a positive real number is a real number. -/
theorem IsReal.rsqrt_pos {x : EReal} (hx : IsPos x) : IsReal (Ideal.rsqrt x) := by
  obtain ⟨a, ha, rfl⟩ := hx
  rw [Ideal.rsqrt_coe, if_neg (not_lt.2 ha.le), if_neg (ne_of_gt ha)]
  exact isReal_coe _

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s (fun _ => ?_) (fun a s ha ih h => ?_)
  · rw [Finset.sum_empty]; exact isReal_zero
  · rw [Finset.sum_insert ha]
    exact (h a (Finset.mem_insert_self a s)).add (ih fun i hi => h i (Finset.mem_insert_of_mem hi))

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty]; exact EReal.coe_zero
  · rw [Finset.sum_insert ha, Finset.sum_insert ha, EReal.coe_add, ih]

/-! ## Arrays -/

variable {s t : Shape} {φ ψ : FTy}

/-- Every entry of the array is a real number. -/
def AllReal (v : s.Idx → EReal) : Prop := ∀ i, IsReal (v i)

/-- Every entry of the array is a positive real number. -/
def AllPos (v : s.Idx → EReal) : Prop := ∀ i, IsPos (v i)

theorem AllPos.allReal {v : s.Idx → EReal} (h : AllPos v) : AllReal v := fun i => (h i).isReal

/-! ### Pointwise operations at the ideal instance -/

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllPos.maximumf_right {a b : FVec Ideal s φ} (ha : AllReal a) (hb : AllPos b) : AllPos (maximumf a b) :=
  fun i => IsPos.max_right (ha i) (hb i)

theorem AllPos.addf {a b : FVec Ideal s φ} (ha : AllPos a) (hb : AllPos b) : AllPos (addf a b) :=
  fun i => (ha i).add (hb i)

theorem AllReal.hostNegf {a : FVec Ideal s φ} (ha : AllReal a) : AllReal (Host.negf a) :=
  fun i => (ha i).neg

theorem AllPos.hostExp {a : FVec Ideal s φ} (ha : AllReal a) : AllPos (Host.exp a) :=
  fun i => IsPos.exp (ha i)

theorem AllReal.hostTanh {a : FVec Ideal s φ} (ha : AllReal a) : AllReal (Host.tanh a) :=
  fun i => (ha i).tanh

theorem AllReal.hostDivf {a b : FVec Ideal s φ} (ha : AllReal a) (hb : AllPos b) : AllReal (Host.divf a b) :=
  fun i => (ha i).div_pos (hb i)

theorem AllReal.hostRsqrt {a : FVec Ideal s φ} (ha : AllPos a) : AllReal (Host.rsqrt a) :=
  fun i => IsReal.rsqrt_pos (ha i)

/-- A selection between two real arrays is a real array, whatever the mask. -/
theorem AllReal.select {c : IVec s 1} {a b : s.Idx → EReal} (ha : AllReal a) (hb : AllReal b) :
    AllReal (select c a b) := fun i => by
  show IsReal (Scalar.select (c i) (a i) (b i))
  unfold Scalar.select
  split
  · exact ha i
  · exact hb i

/-! ### Operations that re-lay entries -/

theorem AllReal.transpose {x : s.Idx → EReal} (hx : AllReal x) (perm : List (Fin s.rank)) (h : s.Transposes perm t) :
    AllReal (transpose t perm x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllPos.broadcastInDim {x : s.Idx → EReal} (hx : AllPos x) (dims : Fin s.rank → Fin t.rank)
    (h : s.BroadcastsInDim t dims) : AllPos (broadcastInDim t dims h x) := fun _ => hx _

theorem AllReal.extractStridedSlice {x : s.Idx → EReal} (hx : AllReal x) (off : Fin s.rank → Nat) (h : s.Slices off t) :
    AllReal (extractStridedSlice t off x h) := fun _ => hx _

theorem AllReal.shapeCast {x : s.Idx → EReal} (hx : AllReal x) (h : s.ShapeCasts t) :
    AllReal (shapeCast t x h) := fun _ => hx _

/-- A gather reads entries of its operand, whatever the indices. -/
theorem AllReal.hostGather {si : Shape} {w : Nat} {x : s.Idx → EReal} (hx : AllReal x) (d : GatherDims s si t)
    (idx : IVec si w) : AllReal (Host.gather d x idx) := fun _ => hx _

/-- A concatenation of real arrays is a real array. -/
theorem AllReal.concatenate (a : Fin t.rank) (xs : List ((s : Shape) × (s.Idx → EReal)))
    (h : Shape.Concatenates (xs.map (·.1)) t a) (hx : ∀ p ∈ xs, AllReal p.2) : AllReal (concatenate t a xs h) := by
  intro j
  unfold Idealize.ShloMosaic.concatenate
  exact hx _ (List.getElem_mem _) _

/-! ### Sums: the host's matrix product and its accumulating scatter -/

/-- Every entry of the host's product of two real arrays is a finite sum of products of real numbers. -/
theorem AllReal.hostDotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Every entry of an accumulating scatter of real updates onto a real array is that array's entry plus a
    finite sum of updates. -/
theorem AllReal.hostScatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (IsReal.sum _ _ fun j _ => hu j)

end RealArrays

end
-- ==== Proof.GeoAlgebra.lean ====
/-
  The algebraic law that joins the two programs. Fix an output row and column. Write a(k) for the adjacency row,
  x(k, j) for the features, w(j) for the weight row of the output column, and xc(k) for the feature column of the
  output column. With vt(k) = ∑ⱼ x(k, j) · w(j), two explicit Euler half-steps of the flow (q, p) ↦ (p, −q) from
  (xc, vt) give the position (xc + ½·vt) + ½·(vt + ½·(−xc)) = ¾·xc + vt, so aggregating the positions over the
  neighbours,
      ∑ₖ a(k) · ((xc(k) + ½·vt(k)) + ½·(vt(k) + ½·(−xc(k)))),
  equals ¾ · ∑ₖ a(k)·xc(k) + ∑ⱼ (∑ₖ a(k)·x(k, j)) · w(j): aggregate first, then apply the weight. The law uses
  distributivity and the exchange of two finite sums, so on the extended reals it is stated for real entries.
-/
import proofs.«168371_g81724637708389_cont_9to1_m_1123_17_alg».proof.Proof.LibRealArrays

noncomputable section

namespace Cert.GeoAlgebra

open RealArrays

/-- The law over the real numbers. -/
theorem flow_real {K J : Type*} [Fintype K] [Fintype J] (a xc : K → ℝ) (x : K → J → ℝ) (w : J → ℝ) :
    (3 / 4 : ℝ) * (∑ k, a k * xc k) + ∑ j, (∑ k, a k * x k j) * w j
      = ∑ k, a k * ((xc k + (1 / 2 : ℝ) * ∑ j, x k j * w j) + (1 / 2 : ℝ) * ((∑ j, x k j * w j) + (1 / 2 : ℝ) * (-(xc k)))) := by
  have step : ∀ k, a k * ((xc k + (1 / 2 : ℝ) * ∑ j, x k j * w j) + (1 / 2 : ℝ) * ((∑ j, x k j * w j) + (1 / 2 : ℝ) * (-(xc k))))
      = (3 / 4 : ℝ) * (a k * xc k) + ∑ j, a k * x k j * w j := by
    intro k
    have e : ∑ j, a k * x k j * w j = a k * ∑ j, x k j * w j := by
      rw [Finset.mul_sum]; exact Finset.sum_congr rfl fun j _ => by ring
    rw [e]; ring
  rw [Finset.sum_congr rfl fun k _ => step k, Finset.sum_add_distrib, ← Finset.mul_sum, Finset.sum_comm]
  congr 1
  exact Finset.sum_congr rfl fun j _ => Finset.sum_mul _ _ _

/-- The law on the extended reals, for real entries. -/
theorem flow_ereal {K J : Type*} [Fintype K] [Fintype J] (a xc : K → EReal) (x : K → J → EReal) (w : J → EReal)
    (ha : ∀ k, IsReal (a k)) (hxc : ∀ k, IsReal (xc k)) (hx : ∀ k j, IsReal (x k j)) (hw : ∀ j, IsReal (w j)) :
    ((3 / 4 : ℝ) : EReal) * (∑ k, a k * xc k) + ∑ j, (∑ k, a k * x k j) * w j
      = ∑ k, a k * ((xc k + ((1 / 2 : ℝ) : EReal) * ∑ j, x k j * w j)
          + ((1 / 2 : ℝ) : EReal) * ((∑ j, x k j * w j) + ((1 / 2 : ℝ) : EReal) * (-(xc k)))) := by
  choose A hA using ha
  choose XC hXC using hxc
  choose X hX using hx
  choose W hW using hw
  simp only [hA, hXC, hX, hW, ← EReal.coe_mul, ← EReal.coe_neg, ← EReal.coe_add, ← coe_sum]
  exact congrArg _ (flow_real A XC X W)

end Cert.GeoAlgebra

end
-- ==== Proof.GeoWords.lean ====
/-
  The two float literals of this certificate as the extended reals their words denote: 0x3F000000 is one half (the
  reference's Euler step size) and 0x3F400000 is three quarters (the kernel's folded coefficient 1 − 1/4).
-/
import Idealize.ShloMosaic.PureOps.Ideal

noncomputable section

namespace Cert.GeoWords

open Idealize.ShloMosaic

/-- The word 0x3F000000 denotes 1/2. -/
theorem ofBits_half : Ideal.ofBits .f32 0x3F000000#32 = ((1 / 2 : ℝ) : EReal) := by
  simp [Ideal.ofBits, Ideal.ieee, -EReal.coe_mul]; norm_num

/-- The word 0x3F400000 denotes 3/4. -/
theorem ofBits_three_quarters : Ideal.ofBits .f32 0x3F400000#32 = ((3 / 4 : ℝ) : EReal) := by
  simp [Ideal.ofBits, Ideal.ieee, -EReal.coe_mul]; norm_num

end Cert.GeoWords

end
-- ==== Proof.GeoBridge.lean ====
/-
  The two programs' results are one function of real arguments. Entry by entry, the reference's
  ∑ₖ adj(r, k) · ((x(k, c) + ½·vt(k, c)) + ½·(vt(k, c) + ½·(−x(k, c)))) with vt(k, c) = ∑ⱼ x(k, j)·w(c, j) is the
  kernel's ¾ · ∑ₖ adj(r, k)·x(k, c) + ∑ⱼ (∑ₖ adj(r, k)·x(k, j)) · w(c, j): the flow law, with the two float words read
  as the numbers ½ and ¾. The law distributes products over sums, so every entry of the three arrays is taken real.
-/
import proofs.«168371_g81724637708389_cont_9to1_m_1123_17_alg».proof.Proof.GeoReference
import proofs.«168371_g81724637708389_cont_9to1_m_1123_17_alg».proof.Proof.GeoAlgebra
import proofs.«168371_g81724637708389_cont_9to1_m_1123_17_alg».proof.Proof.GeoWords

noncomputable section

namespace Cert.GeoBridge

open Idealize.ShloMosaic Idealize.ShloMosaic.ValueIdx RealArrays
open Cert.GeoSpec Cert.GeoReference Cert.GeoAlgebra Cert.GeoWords

/-- For real features, adjacency and weight the reference's result array is the kernel's. -/
theorem Gref_eq_G (x : SX.Idx → EReal) (adj : SA.Idx → EReal) (w : SW.Idx → EReal)
    (hx : AllReal x) (ha : AllReal adj) (hw : AllReal w) : Gref x adj w = G x adj w := by
  funext i
  obtain ⟨r, c, rfl⟩ : ∃ (r : Fin 10000) (c : Fin 128), i = ix2 r c := ⟨i 0, i 1, eq_ix2 i⟩
  show refEntry x adj w r c = entry x adj w r c
  unfold refEntry position vt entry agg half
  rw [ofBits_half, ofBits_three_quarters]
  exact (flow_ereal (fun k => adj (ix2 r k)) (fun k => x (ix2 k c)) (fun k j => x (ix2 k j)) (fun j => w (ix2 c j))
    (fun k => ha _) (fun k => hx _) (fun k j => hx _) (fun j => hw _)).symm

end Cert.GeoBridge

end
-- ==== Proof.LibFiniteEntries.lean ====
/-
  Entries of finite magnitude are real numbers. An extended real x whose magnitude max x (−x) is strictly below +∞
  is neither +∞ nor −∞, so it is a real number. A precondition that says this of every entry of an array — the
  conjunction, over all entries, of the comparison |x| < +∞ — therefore makes every entry of the array real.
-/
import Idealize.ShloMosaic.PureOps.Ideal.Laws
import Idealize.ShloMosaic.Lib.ValueIdx
import Idealize.ShloMosaic.Lib.ReduceAll

namespace Idealize.ShloMosaic.FiniteEntries

open Idealize.ShloMosaic

/-- The word 0x7F800000 is +∞. -/
theorem ofBits_inf_f32 : Ideal.ofBits .f32 0x7F800000#32 = (⊤ : EReal) := by
  simp [Ideal.ofBits, Ideal.ieee]

/-- An extended real whose magnitude is strictly below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison bit of |x| < +∞ being one makes x real. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf_f32] at h
  refine real_of_abs_lt_top x ?_
  have h' : Ideal.cmp .olt (max x (-x)) ⊤ = 1#1 := h
  unfold Ideal.cmp at h'
  by_contra hlt
  simp [hlt] at h'

end Idealize.ShloMosaic.FiniteEntries
-- ==== Proof.GeoFinite.lean ====
/-
  The precondition makes every entry real. The precondition is the conjunction, over the three argument arrays, of
  "every entry has magnitude strictly below +∞"; its bit being one therefore gives that comparison's bit at every
  entry of every array, and an extended real of magnitude below +∞ is a real number.
-/
import proofs.«168371_g81724637708389_cont_9to1_m_1123_17_alg».proof.Pre_finite_inputs
import proofs.«168371_g81724637708389_cont_9to1_m_1123_17_alg».proof.Proof.LibFiniteEntries
import proofs.«168371_g81724637708389_cont_9to1_m_1123_17_alg».proof.Proof.LibRealArrays
import Idealize.ShloMosaic.Lib.ReduceAll

noncomputable section

namespace Cert.GeoFinite

open Idealize.ShloMosaic Idealize.ShloMosaic.FiniteEntries RealArrays Cert.Pre_finite_inputs

/-- A rank-0 array has one index. -/
instance : Subsingleton S_.Idx := ⟨fun a b => funext fun d => d.elim0⟩

variable [Cert.Pre_finite_inputs.Facts]

/-- Under the precondition every entry of the features, of the adjacency and of the weight is a real number. -/
theorem allReal_of_pre (x : FVec Ideal S10000x128 .f32) (adj : FVec Ideal S10000x10000 .f32) (w : FVec Ideal S128x128 .f32)
    (h : Cert.Pre_finite_inputs.fn (F := Ideal) x adj w = fun _ => 1#1) :
    AllReal x ∧ AllReal adj ∧ AllReal w := by
  have h0 := congrFun h ValueIdx.ix0
  dsimp only [Cert.Pre_finite_inputs.fn] at h0
  obtain ⟨hxa, hw⟩ := IntOp.andi_eq_one.1 h0
  obtain ⟨hx, ha⟩ := IntOp.andi_eq_one.1 hxa
  exact ⟨fun i => real_of_cmp _ (Host.reduce_andi_all _ _ _ _ _ hx i),
    fun i => real_of_cmp _ (Host.reduce_andi_all _ _ _ _ _ ha i),
    fun i => real_of_cmp _ (Host.reduce_andi_all _ _ _ _ _ hw i)⟩

end Cert.GeoFinite

end
-- ==== Proof.lean ====
/-
  A graph convolution whose node update is a Hamiltonian flow, in two spellings that agree for finite inputs.

  The reference forms the momenta vt = x · wᵀ from the features x : [10000, 128] and the weight w : [128, 128], takes
  two explicit Euler half-steps of the flow (q, p) ↦ (p, −q) from (x, vt), keeps the positions
  (x + ½·vt) + ½·(vt + ½·(−x)) = ¾·x + vt, and aggregates them over each node's neighbours with the adjacency
  adj : [10000, 10000]: entry (r, c) is ∑ₖ adj(r, k) · position(k, c).

  The kernel aggregates first. Its grid has 25 points; point t multiplies adjacency rows 400·t … 400·t + 399 by all the
  features, y = adj_block · x, and writes ¾·y + y · wᵀ to the same rows of the result. Its 25 blocks tile the result, so
  entry (r, c) is ¾ · ∑ₖ adj(r, k)·x(k, c) + ∑ⱼ (∑ₖ adj(r, k)·x(k, j)) · w(c, j).

  The two are equal by distributivity and the exchange of two finite sums. On the extended reals these need real
  entries, which the precondition (every input entry of magnitude below +∞) supplies. The kernel's idealization
  rewrites nothing, so that conjunct is trivial; the three frames are the generated frame runs.
-/
import proofs.«168371_g81724637708389_cont_9to1_m_1123_17_alg».proof.Defs
import proofs.«168371_g81724637708389_cont_9to1_m_1123_17_alg».proof.Proof.Gen.Kernel
import proofs.«168371_g81724637708389_cont_9to1_m_1123_17_alg».proof.Proof.Gen.Kernel.Skeleton
import proofs.«168371_g81724637708389_cont_9to1_m_1123_17_alg».proof.Proof.Gen.Kernel.Launch
import proofs.«168371_g81724637708389_cont_9to1_m_1123_17_alg».proof.Proof.Gen.Kernel.Points
import proofs.«168371_g81724637708389_cont_9to1_m_1123_17_alg».proof.Proof.Gen.Kernel.Frame
import proofs.«168371_g81724637708389_cont_9to1_m_1123_17_alg».proof.Proof.Gen.KernelIdeal
import proofs.«168371_g81724637708389_cont_9to1_m_1123_17_alg».proof.Proof.Gen.KernelIdeal.Skeleton
import proofs.«168371_g81724637708389_cont_9to1_m_1123_17_alg».proof.Proof.Gen.KernelIdeal.Launch
import proofs.«168371_g81724637708389_cont_9to1_m_1123_17_alg».proof.Proof.Gen.KernelIdeal.Points
import proofs.«168371_g81724637708389_cont_9to1_m_1123_17_alg».proof.Proof.Gen.KernelIdeal.Frame
import proofs.«168371_g81724637708389_cont_9to1_m_1123_17_alg».proof.Proof.Gen.ReferenceIdeal
import proofs.«168371_g81724637708389_cont_9to1_m_1123_17_alg».proof.Proof.Gen.Pre_finite_inputs
import proofs.«168371_g81724637708389_cont_9to1_m_1123_17_alg».proof.Proof.Gen.KernelIdeal.Value
import proofs.«168371_g81724637708389_cont_9to1_m_1123_17_alg».proof.Proof.Gen.ReferenceIdeal.Run
import proofs.«168371_g81724637708389_cont_9to1_m_1123_17_alg».proof.Proof.Gen.ReferenceIdeal.Read
import proofs.«168371_g81724637708389_cont_9to1_m_1123_17_alg».proof.Proof.GeoKernelValue
import proofs.«168371_g81724637708389_cont_9to1_m_1123_17_alg».proof.Proof.GeoReference
import proofs.«168371_g81724637708389_cont_9to1_m_1123_17_alg».proof.Proof.GeoBridge
import proofs.«168371_g81724637708389_cont_9to1_m_1123_17_alg».proof.Proof.GeoFinite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on finite arguments the kernel's result array and the reference's are both G of the
    arguments: the kernel's by its blocks, the reference's by its stages and the flow law. -/
theorem algebraic : Cert.algebraic_KernelIdeal_ReferenceIdeal := by
  intro m ρ m' ρ' hpre hagree
  refine ⟨_, Cert.GeoKernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hw⟩ := Cert.GeoFinite.allReal_of_pre _ _ _ (hpre c)
  rw [Cert.ReferenceIdeal.Read.val_main_v18_eq, (hagree c).1, (hagree c).2.1, (hagree c).2.2,
    Cert.GeoReference.result_eq]
  exact Cert.GeoBridge.Gref_eq_G _ _ _ hx ha hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
